-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S5120x3072 : Shape := ⟨2, ![5120, 3072]⟩
abbrev S5120 : Shape := ⟨1, ![5120]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S5120x3072 : S_.BroadcastsInDim S5120x3072 (![] : Fin 0 → Fin S5120x3072.rank)
  reducesTo_S5120x3072_S_d0_1 : S5120x3072.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg4 : FVec F S8192x1024 .f32) (main_arg5 : FVec F S5120x3072 .f32) (main_arg6 : FVec F S5120 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S5120x3072 .f32 := Host.absf main_arg5
  let main_cst_8 : FVec F S_ .f32 := constant S_ .f32 0x7F800000#32
  let main_v25 : FVec F S5120x3072 .f32 := broadcastInDim S5120x3072 ![] bcast_S_S5120x3072 main_cst_8
  let main_v26 : IVec S5120x3072 1 := cmpf .olt main_v24 main_v25
  let main_c_9 : IVec S_ 1 := constantI S_ 1 1#1
  let main_v27 : IVec S_ 1 := (fun x v => Host.reduce IntOp.andi x v reducesTo_S5120x3072_S_d0_1 h_S_) main_v26 main_c_9
  let main_v28 : IVec S_ 1 := andi main_v23 main_v27
  let main_v29 : FVec F S5120 .f32 := Host.absf main_arg6
  let main_cst_10 : FVec F S_ .f32 := constant S_ .f32 0x7F800000#32
  let main_v30 : FVec F S5120 .f32 := broadcastInDim S5120 ![] bcast_S_S5120 main_cst_10
  let main_v31 : IVec S5120 1 := cmpf .olt main_v29 main_v30
  let main_c_11 : IVec S_ 1 := constantI S_ 1 1#1
  let main_v32 : IVec S_ 1 := (fun x v => Host.reduce IntOp.andi x v reducesTo_S5120_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S5120x3072 .f32) (main_arg6 : FVec F S5120 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Kernel.lean ====
abbrev S8192x1024 : Shape := ⟨2, ![8192, 1024]⟩
abbrev S5120x3072 : Shape := ⟨2, ![5120, 3072]⟩
abbrev S5120 : Shape := ⟨1, ![5120]⟩
abbrev S1x5120 : Shape := ⟨2, ![1, 5120]⟩
abbrev S128x1024 : Shape := ⟨2, ![128, 1024]⟩
abbrev S5120x1024 : Shape := ⟨2, ![5120, 1024]⟩
abbrev S128x5120 : Shape := ⟨2, ![128, 5120]⟩
abbrev S1x1024 : Shape := ⟨2, ![1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S5120x3072, .f32⟩
  | .hbm, ⟨6, _⟩ => ⟨S5120, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S5120x3072, .bf16⟩
  | .hbm, ⟨11, _⟩ => ⟨S1x5120, .f32⟩
  | .hbm, ⟨12, _⟩ => ⟨S8192x1024, .f32⟩
  | .hbm, ⟨13, _⟩ => ⟨S8192x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S5120x3072, .bf16⟩
  | .local _ .vmem, ⟨7, _⟩ => ⟨S1x5120, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S5120_S1x5120 : S5120.ShapeCasts S1x5120
  inb_S5120x3072_S5120x1024_0_0 : ∀ a, (![0, 0] : Fin 2 → Nat) a + S5120x1024.size a ≤ S5120x3072.size a
  h_S5120x1024 : 0 < S5120x1024.numel
  shapeCasts_S5120x1024_S5120x1024 : S5120x1024.ShapeCasts S5120x1024
  inb_S5120x3072_S5120x1024_0_1024 : ∀ a, (![0, 1024] : Fin 2 → Nat) a + S5120x1024.size a ≤ S5120x3072.size a
  inb_S5120x3072_S5120x1024_0_2048 : ∀ a, (![0, 2048] : Fin 2 → Nat) a + S5120x1024.size a ≤ S5120x3072.size a
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  slices_S128x5120_o0_0_S128x1024 : S128x5120.Slices ![0, 0] S128x1024
  slices_S1x5120_o0_0_S1x1024 : S1x5120.Slices ![0, 0] S1x1024
  broadcasts_S1x1024_S128x1024 : S1x1024.Broadcasts S128x1024
  slices_S128x5120_o0_1024_S128x1024 : S128x5120.Slices ![0, 1024] S128x1024
  slices_S1x5120_o0_1024_S1x1024 : S1x5120.Slices ![0, 1024] S1x1024
  slices_S128x5120_o0_2048_S128x1024 : S128x5120.Slices ![0, 2048] S128x1024
  slices_S1x5120_o0_2048_S1x1024 : S1x5120.Slices ![0, 2048] S1x1024
  slices_S128x5120_o0_3072_S128x1024 : S128x5120.Slices ![0, 3072] S128x1024
  slices_S1x5120_o0_3072_S1x1024 : S1x5120.Slices ![0, 3072] S1x1024
  slices_S128x5120_o0_4096_S128x1024 : S128x5120.Slices ![0, 4096] S128x1024
  slices_S1x5120_o0_4096_S1x1024 : S1x5120.Slices ![0, 4096] S1x1024
  dot_S128x1024_S5120x1024_S128x5120_1_1_0_0_n_n_wf : DotDims.WF S128x1024 S5120x1024 S128x5120 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .bf16 = 32 ∨ (Rect.block (s := S8192x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .bf16 = 32 ∨ (Rect.block (s := S8192x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .bf16 = 32 ∨ (Rect.block (s := S8192x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5120x3072.size a ≤ S5120x3072.size a
  hwx0_3 : ∀ i : grid0.Coords, EltTy.bits .bf16 = 32 ∨ (Rect.block (s := S5120x3072) S5120x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5120.size a ≤ S1x5120.size a
  hwx0_4 : ∀ i : grid0.Coords, EltTy.bits .f32 = 32 ∨ (Rect.block (s := S1x5120) S1x5120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)

variable [Facts₀]

def dot_S128x1024_S5120x1024_S128x5120_1_1_0_0_n_n : DotDims S128x1024 S5120x1024 S128x5120 where
  lhsContracting := [1]
  rhsContracting := [1]
  lhsNonContracting := [0]
  rhsNonContracting := [0]
  lhsBatch := []
  rhsBatch := []
  wf := dot_S128x1024_S5120x1024_S128x5120_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5120x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S5120x3072 : Shape := ⟨2, ![5120, 3072]⟩
abbrev S5120 : Shape := ⟨1, ![5120]⟩
abbrev S8192x3072 : Shape := ⟨2, ![8192, 3072]⟩
abbrev S3072x5120 : Shape := ⟨2, ![3072, 5120]⟩
abbrev S8192x5120 : Shape := ⟨2, ![8192, 5120]⟩
abbrev S1x5120 : Shape := ⟨2, ![1, 5120]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S5120x3072, .f32⟩
  | .hbm, ⟨6, _⟩ => ⟨S5120, .f32⟩
  | .hbm, ⟨7, _⟩ => ⟨S8192x3072, .f32⟩
  | .hbm, ⟨8, _⟩ => ⟨S3072x5120, .f32⟩
  | .hbm, ⟨9, _⟩ => ⟨S8192x5120, .f32⟩
  | .hbm, ⟨10, _⟩ => ⟨S1x5120, .f32⟩
  | .hbm, ⟨11, _⟩ => ⟨S8192x5120, .f32⟩
  | .hbm, ⟨12, _⟩ => ⟨S8192x5120, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  concatenates_S8192x1024_S8192x1024_S8192x1024_S8192x3072_d1 : Shape.Concatenates [S8192x1024, S8192x1024, S8192x1024] S8192x3072 1
  transposes_S5120x3072_S3072x5120_1_0 : S5120x3072.Transposes [1, 0] S3072x5120
  bcast_S5120_S1x5120_1 : S5120.BroadcastsInDim S1x5120 (![1] : Fin 1 → Fin S1x5120.rank)
  bcast_S1x5120_S8192x5120_0_1 : S1x5120.BroadcastsInDim S8192x5120 (![0, 1] : Fin 2 → Fin S8192x5120.rank)
  slices_S8192x5120_S8192x1024_0_0 : S8192x5120.Slices ![0, 0] S8192x1024
  slices_S8192x5120_S8192x1024_0_1024 : S8192x5120.Slices ![0, 1024] S8192x1024
  slices_S8192x5120_S8192x1024_0_2048 : S8192x5120.Slices ![0, 2048] S8192x1024
  slices_S8192x5120_S8192x1024_0_3072 : S8192x5120.Slices ![0, 3072] S8192x1024
  slices_S8192x5120_S8192x1024_0_4096 : S8192x5120.Slices ![0, 4096] S8192x1024
  bcast_S_S8192x1024 : S_.BroadcastsInDim S8192x1024 (![] : Fin 0 → Fin S8192x1024.rank)
  dot_S8192x3072_S3072x5120_S8192x5120_1_0_0_1_n_n_wf : DotDims.WF S8192x3072 S3072x5120 S8192x5120 [1] [0] [0] [1] [] []

variable [Facts₀]

def dot_S8192x3072_S3072x5120_S8192x5120_1_0_0_1_n_n : DotDims S8192x3072 S3072x5120 S8192x5120 where
  lhsContracting := [1]
  rhsContracting := [0]
  lhsNonContracting := [0]
  rhsNonContracting := [1]
  lhsBatch := []
  rhsBatch := []
  wf := dot_S8192x3072_S3072x5120_S8192x5120_1_0_0_1_n_n_wf

class Facts : Prop extends Facts₀ where

variable [Facts]
-- ==== Proof.Cell.lean ====
/-
  The binary tree-LSTM cell as ONE function of its seven argument arrays, index by index, on the extended reals.

  Arguments: x, h_left, c_left, h_right, c_right of shape [8192, 1024]; the stacked weights W of shape [5120, 3072]
  (five gates of 1024 rows each; the 3072 columns are three bands of 1024 that multiply x, h_left and h_right); the
  bias b of shape [5120].

  For row r and gate column q the pre-activation is

      pre r q = (Σ_{k<1024} x[r,k]·W[q,k] + Σ_{k<1024} h_left[r,k]·W[q,1024+k]) + Σ_{k<1024} h_right[r,k]·W[q,2048+k] + b[q],

  and with σ the logistic function, for column j < 1024,

      c[r,j] = σ(pre r j)·tanh(pre r (4096+j)) + σ(pre r (1024+j))·c_left[r,j] + σ(pre r (2048+j))·c_right[r,j]
      h[r,j] = σ(pre r (3072+j))·tanh(c[r,j]).

  The one law used between the two programs: a sum over the 3072 weight columns is the sum of its three bands. It
  holds in any commutative additive monoid, so on the extended reals no finiteness is needed.
-/
import Idealize.ShloMosaic.PureOps.Ideal
import Idealize.ShloMosaic.Lib.ValueIdx

noncomputable section

open scoped BigOperators

namespace Cert.TreeCell

open Idealize.ShloMosaic Idealize.ShloMosaic.ValueIdx

/-- An activation array, [8192, 1024]. -/
abbrev Rows := (⟨2, ![8192, 1024]⟩ : Shape).Idx → EReal
/-- The stacked weights, [5120, 3072]. -/
abbrev Wts := (⟨2, ![5120, 3072]⟩ : Shape).Idx → EReal
/-- The stacked bias, [5120]. -/
abbrev Bias := (⟨1, ![5120]⟩ : Shape).Idx → EReal

/-- Column `k` of the band of weight columns that multiplies x. -/
abbrev band0 (k : Fin 1024) : Fin 3072 := ⟨k.val, by have := k.isLt; omega⟩
/-- Column `k` of the band that multiplies h_left. -/
abbrev band1 (k : Fin 1024) : Fin 3072 := ⟨k.val + 1024, by have := k.isLt; omega⟩
/-- Column `k` of the band that multiplies h_right. -/
abbrev band2 (k : Fin 1024) : Fin 3072 := ⟨k.val + 2048, by have := k.isLt; omega⟩

/-- Column `j` of gate `n` (input, forget-left, forget-right, output, update) among the 5120 gate columns. -/
abbrev gate0 (j : Fin 1024) : Fin 5120 := ⟨j.val, by have := j.isLt; omega⟩
abbrev gate1 (j : Fin 1024) : Fin 5120 := ⟨j.val + 1024, by have := j.isLt; omega⟩
abbrev gate2 (j : Fin 1024) : Fin 5120 := ⟨j.val + 2048, by have := j.isLt; omega⟩
abbrev gate3 (j : Fin 1024) : Fin 5120 := ⟨j.val + 3072, by have := j.isLt; omega⟩
abbrev gate4 (j : Fin 1024) : Fin 5120 := ⟨j.val + 4096, by have := j.isLt; omega⟩

/-- The product of the three activations with their bands of the weights, at row `r` and gate column `q`. -/
def acc (x hl hr : Rows) (w : Wts) (r : Fin 8192) (q : Fin 5120) : EReal :=
  (∑ k : Fin 1024, x (ix2 r k) * w (ix2 q (band0 k)) + ∑ k : Fin 1024, hl (ix2 r k) * w (ix2 q (band1 k)))
    + ∑ k : Fin 1024, hr (ix2 r k) * w (ix2 q (band2 k))

/-- The gate pre-activation: the product plus the bias. -/
def pre (x hl hr : Rows) (w : Wts) (b : Bias) (r : Fin 8192) (q : Fin 5120) : EReal :=
  acc x hl hr w r q + b (ix1 q)

/-- The new cell state at (r, j). -/
def cellC (x hl cl hr cr : Rows) (w : Wts) (b : Bias) (r : Fin 8192) (j : Fin 1024) : EReal :=
  (Ideal.logistic (pre x hl hr w b r (gate0 j)) * Ideal.tanh (pre x hl hr w b r (gate4 j))
      + Ideal.logistic (pre x hl hr w b r (gate1 j)) * cl (ix2 r j))
    + Ideal.logistic (pre x hl hr w b r (gate2 j)) * cr (ix2 r j)

/-- The new hidden state at (r, j). -/
def cellH (x hl cl hr cr : Rows) (w : Wts) (b : Bias) (r : Fin 8192) (j : Fin 1024) : EReal :=
  Ideal.logistic (pre x hl hr w b r (gate3 j)) * Ideal.tanh (cellC x hl cl hr cr w b r j)

/-- The cell-state output array. -/
def outC (x hl cl hr cr : Rows) (w : Wts) (b : Bias) : Rows := fun i => cellC x hl cl hr cr w b (i 0) (i 1)
/-- The hidden-state output array. -/
def outH (x hl cl hr cr : Rows) (w : Wts) (b : Bias) : Rows := fun i => cellH x hl cl hr cr w b (i 0) (i 1)

/-- A sum over the 3072 weight columns is the sum over its three bands of 1024. -/
theorem sum_bands {M : Type} [AddCommMonoid M] (f : Fin 3072 → M) :
    ∑ k : Fin 3072, f k
      = (∑ k : Fin 1024, f (band0 k) + ∑ k : Fin 1024, f (band1 k)) + ∑ k : Fin 1024, f (band2 k) := by
  have h1 : ∑ k : Fin (2048 + 1024), f k
      = ∑ k : Fin 2048, f (Fin.castAdd 1024 k) + ∑ k : Fin 1024, f (Fin.natAdd 2048 k) := Fin.sum_univ_add (a := 2048) (b := 1024) f
  have h2 : ∑ k : Fin (1024 + 1024), f (Fin.castAdd 1024 k)
      = ∑ k : Fin 1024, f (Fin.castAdd 1024 (Fin.castAdd 1024 k)) + ∑ k : Fin 1024, f (Fin.castAdd 1024 (Fin.natAdd 1024 k)) :=
    Fin.sum_univ_add (a := 1024) (b := 1024) fun k => f (Fin.castAdd 1024 k)
  refine h1.trans ?_
  rw [h2]
  refine congrArg₂ (· + ·) (congrArg₂ (· + ·) ?_ ?_) ?_
  · exact Finset.sum_congr rfl fun k _ => congrArg f (Fin.ext rfl)
  · exact Finset.sum_congr rfl fun k _ => congrArg f (Fin.ext (by show 1024 + k.val = k.val + 1024; omega))
  · exact Finset.sum_congr rfl fun k _ => congrArg f (Fin.ext (by show 2048 + k.val = k.val + 2048; omega))

end Cert.TreeCell

end
-- ==== Proof.RefCell.lean ====
/-
  The reference computes the cell: its two results, read index by index at the ideal values, are `outH` and `outC`.

  The reference concatenates x, h_left, h_right along the columns into [8192, 3072], multiplies by the transpose of W
  in ONE product over all 3072 columns, adds the bias, slices the five gates, and spells the logistic function as
  1 / (1 + exp (−z)). Column k of the concatenation lies in one of three bands and is read from the array of that
  band; the one product is then the sum of the three band products (`sum_bands`), and 1 / (1 + exp (−z)) is the
  logistic function by its definition on the extended reals.
-/
import proofs.«148019_j15960098472359_2_alg».proof.Proof.Gen.ReferenceIdeal.Read
import proofs.«148019_j15960098472359_2_alg».proof.Proof.Cell
import Idealize.ShloMosaic.Lib.IdealHost

noncomputable section

open scoped BigOperators

namespace Cert.TreeCell.Ref

open Cert.ReferenceIdeal Cert.ReferenceIdeal.Gen Cert.ReferenceIdeal.Read Idealize.ShloMosaic Idealize.ShloMosaic.ValueIdx
open Cert.TreeCell

variable (x0 x1 x2 x3 x4 : (⟨S8192x1024, .f32⟩ : BufTy).Contents (Elt Ideal))
variable (x5 : (⟨S5120x3072, .f32⟩ : BufTy).Contents (Elt Ideal)) (x6 : (⟨S5120, .f32⟩ : BufTy).Contents (Elt Ideal))

/-! ## The concatenation, band by band -/

/-- A column of the first band of the concatenation is a column of x. -/
theorem cat_band0 (r : Fin 8192) (k : Fin 1024) :
    val_main_v0 (F := Ideal) x0 x1 x3 (ix2 r (band0 k)) = x0 (ix2 r k) := by
  unfold val_main_v0
  refine concatenate_apply_piece (t := S8192x3072) (1 : Fin 2) [⟨S8192x1024, x0⟩, ⟨S8192x1024, x1⟩, ⟨S8192x1024, x3⟩]
    concatenates_S8192x1024_S8192x1024_S8192x1024_S8192x3072_d1 (ix2 r (band0 k)) 0 (by show (0 : Nat) < 3; omega)
    S8192x1024 x0 rfl rfl 0 ?hpre (ix2 r k) ?hi ?ha
  case hpre => simp
  case hi =>
    intro b hb
    match b with
    | ⟨0, _⟩ => rfl
    | ⟨1, _⟩ => exact absurd (Fin.ext rfl) hb
  case ha => show 0 + k.val = k.val; omega

/-- A column of the second band is a column of h_left. -/
theorem cat_band1 (r : Fin 8192) (k : Fin 1024) :
    val_main_v0 (F := Ideal) x0 x1 x3 (ix2 r (band1 k)) = x1 (ix2 r k) := by
  unfold val_main_v0
  refine concatenate_apply_piece (t := S8192x3072) (1 : Fin 2) [⟨S8192x1024, x0⟩, ⟨S8192x1024, x1⟩, ⟨S8192x1024, x3⟩]
    concatenates_S8192x1024_S8192x1024_S8192x1024_S8192x3072_d1 (ix2 r (band1 k)) 1 (by show (1 : Nat) < 3; omega)
    S8192x1024 x1 rfl rfl 1024 ?hpre (ix2 r k) ?hi ?ha
  case hpre => simp
  case hi =>
    intro b hb
    match b with
    | ⟨0, _⟩ => rfl
    | ⟨1, _⟩ => exact absurd (Fin.ext rfl) hb
  case ha => show 1024 + k.val = k.val + 1024; omega

/-- A column of the third band is a column of h_right. -/
theorem cat_band2 (r : Fin 8192) (k : Fin 1024) :
    val_main_v0 (F := Ideal) x0 x1 x3 (ix2 r (band2 k)) = x3 (ix2 r k) := by
  unfold val_main_v0
  refine concatenate_apply_piece (t := S8192x3072) (1 : Fin 2) [⟨S8192x1024, x0⟩, ⟨S8192x1024, x1⟩, ⟨S8192x1024, x3⟩]
    concatenates_S8192x1024_S8192x1024_S8192x1024_S8192x3072_d1 (ix2 r (band2 k)) 2 (by show (2 : Nat) < 3; omega)
    S8192x1024 x3 rfl rfl 2048 ?hpre (ix2 r k) ?hi ?ha
  case hpre => simp
  case hi =>
    intro b hb
    match b with
    | ⟨0, _⟩ => rfl
    | ⟨1, _⟩ => exact absurd (Fin.ext rfl) hb
  case ha => show 2048 + k.val = k.val + 2048; omega

/-! ## The pre-activation -/

/-- The product reads the concatenation at (row, k). -/
theorem lidx_eq (r : Fin 8192) (q : Fin 5120) (k : Fin 3072) : lidx_main_v2 (ix2 r q) k = ix2 r k :=
  funext fun a => match a with | ⟨0, _⟩ => rfl | ⟨1, _⟩ => rfl

/-- The product reads the transposed weights at (k, gate column), which is W at (gate column, k). -/
theorem ridx_eq (r : Fin 8192) (q : Fin 5120) (k : Fin 3072) : idx_main_v1 (ridx_main_v2 (ix2 r q) k) = ix2 q k :=
  funext fun a => match a with | ⟨0, _⟩ => rfl | ⟨1, _⟩ => rfl

/-- The broadcast bias at (row, gate column) is the bias at the gate column. -/
theorem bidx_eq (r : Fin 8192) (q : Fin 5120) : idx_main_v3 (idx_main_v4 (ix2 r q)) = ix1 q :=
  funext fun a => match a with | ⟨0, _⟩ => rfl

/-- The reference's product plus bias, at (row, gate column), is the pre-activation. -/
theorem pre_eq (r : Fin 8192) (q : Fin 5120) :
    val_main_v5 (F := Ideal) x0 x1 x3 x5 x6 (ix2 r q) = pre x0 x1 x3 x5 x6 r q := by
  rw [val_main_v5_apply, val_main_v2_apply, val_main_v4_apply, val_main_v3_apply, bidx_eq, sum_bands]
  simp only [lidx_eq, val_main_v1_apply, ridx_eq, cat_band0, cat_band1, cat_band2]
  rfl

/-! ## The gates -/

/-- One over one plus the exponential of the negation, in the host's operations, is the logistic function. -/
theorem sigmoid_eq (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

theorem slice0_eq (r : Fin 8192) (j : Fin 1024) : idx_main_v6 (ix2 r j) = ix2 r (gate0 j) :=
  funext fun a => match a with | ⟨0, _⟩ => rfl | ⟨1, _⟩ => rfl
theorem slice1_eq (r : Fin 8192) (j : Fin 1024) : idx_main_v7 (ix2 r j) = ix2 r (gate1 j) :=
  funext fun a => match a with | ⟨0, _⟩ => rfl | ⟨1, _⟩ => Fin.ext (by show 1024 + j.val = j.val + 1024; omega)
theorem slice2_eq (r : Fin 8192) (j : Fin 1024) : idx_main_v8 (ix2 r j) = ix2 r (gate2 j) :=
  funext fun a => match a with | ⟨0, _⟩ => rfl | ⟨1, _⟩ => Fin.ext (by show 2048 + j.val = j.val + 2048; omega)
theorem slice3_eq (r : Fin 8192) (j : Fin 1024) : idx_main_v9 (ix2 r j) = ix2 r (gate3 j) :=
  funext fun a => match a with | ⟨0, _⟩ => rfl | ⟨1, _⟩ => Fin.ext (by show 3072 + j.val = j.val + 3072; omega)
theorem slice4_eq (r : Fin 8192) (j : Fin 1024) : idx_main_v10 (ix2 r j) = ix2 r (gate4 j) :=
  funext fun a => match a with | ⟨0, _⟩ => rfl | ⟨1, _⟩ => Fin.ext (by show 4096 + j.val = j.val + 4096; omega)

/-- The input gate. -/
theorem gate0_eq (r : Fin 8192) (j : Fin 1024) :
    val_main_v16 (F := Ideal) x0 x1 x3 x5 x6 (ix2 r j) = Ideal.logistic (pre x0 x1 x3 x5 x6 r (gate0 j)) := by
  rw [val_main_v16_apply, val_main_v15_apply, val_main_cst_0_apply, val_main_v14_apply, val_main_v13_apply,
    val_main_cst_apply, val_main_v12_apply, val_main_v11_apply, val_main_v6_apply, slice0_eq, pre_eq]
  exact sigmoid_eq _

/-- The left forget gate. -/
theorem gate1_eq (r : Fin 8192) (j : Fin 1024) :
    val_main_v22 (F := Ideal) x0 x1 x3 x5 x6 (ix2 r j) = Ideal.logistic (pre x0 x1 x3 x5 x6 r (gate1 j)) := by
  rw [val_main_v22_apply, val_main_v21_apply, val_main_cst_2_apply, val_main_v20_apply, val_main_v19_apply,
    val_main_cst_1_apply, val_main_v18_apply, val_main_v17_apply, val_main_v7_apply, slice1_eq, pre_eq]
  exact sigmoid_eq _

/-- The right forget gate. -/
theorem gate2_eq (r : Fin 8192) (j : Fin 1024) :
    val_main_v28 (F := Ideal) x0 x1 x3 x5 x6 (ix2 r j) = Ideal.logistic (pre x0 x1 x3 x5 x6 r (gate2 j)) := by
  rw [val_main_v28_apply, val_main_v27_apply, val_main_cst_4_apply, val_main_v26_apply, val_main_v25_apply,
    val_main_cst_3_apply, val_main_v24_apply, val_main_v23_apply, val_main_v8_apply, slice2_eq, pre_eq]
  exact sigmoid_eq _

/-- The output gate. -/
theorem gate3_eq (r : Fin 8192) (j : Fin 1024) :
    val_main_v34 (F := Ideal) x0 x1 x3 x5 x6 (ix2 r j) = Ideal.logistic (pre x0 x1 x3 x5 x6 r (gate3 j)) := by
  rw [val_main_v34_apply, val_main_v33_apply, val_main_cst_6_apply, val_main_v32_apply, val_main_v31_apply,
    val_main_cst_5_apply, val_main_v30_apply, val_main_v29_apply, val_main_v9_apply, slice3_eq, pre_eq]
  exact sigmoid_eq _

/-- The update. -/
theorem gate4_eq (r : Fin 8192) (j : Fin 1024) :
    val_main_v35 (F := Ideal) x0 x1 x3 x5 x6 (ix2 r j) = Ideal.tanh (pre x0 x1 x3 x5 x6 r (gate4 j)) := by
  rw [val_main_v35_apply, val_main_v10_apply, slice4_eq, pre_eq]
  rfl

/-! ## The two results -/

/-- The reference's cell state is `outC`. -/
theorem cell_state_eq : val_main_v40 (F := Ideal) x0 x1 x2 x3 x4 x5 x6 = outC x0 x1 x2 x3 x4 x5 x6 := by
  funext i
  obtain ⟨r, j, rfl⟩ : ∃ (r : Fin 8192) (j : Fin 1024), i = ix2 r j := ⟨i 0, i 1, eq_ix2 i⟩
  rw [val_main_v40_apply, val_main_v38_apply, val_main_v36_apply, val_main_v37_apply, val_main_v39_apply,
    gate0_eq, gate1_eq, gate2_eq, gate4_eq]
  rfl

/-- The reference's hidden state is `outH`. -/
theorem hidden_state_eq : val_main_v42 (F := Ideal) x0 x1 x2 x3 x4 x5 x6 = outH x0 x1 x2 x3 x4 x5 x6 := by
  funext i
  obtain ⟨r, j, rfl⟩ : ∃ (r : Fin 8192) (j : Fin 1024), i = ix2 r j := ⟨i 0, i 1, eq_ix2 i⟩
  rw [val_main_v42_apply, val_main_v41_apply, gate3_eq, cell_state_eq]
  rfl

end Cert.TreeCell.Ref

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.KernBlock.lean ====
/-
  One grid point of the kernel, over arbitrary loaded blocks.

  The body loads a block of 128 rows of x, h_left, h_right (P3, P4, P5), the three 1024-column bands of the whole
  weight array (P0, P1, P2), the bias row (P6) and the same 128 rows of c_left, c_right (P7, P8). Each of its three
  matrix products contracts the last axis of both operands into a zero accumulator, so at entry (p, q) it is
  Σ_k rows[p, k] · band[q, k]; their sum is the product term of the pre-activation of row p. The rest of the body is
  pointwise on column slices, so the stored blocks, read at (p, j), are the cell's h and c of the arrays the loads
  came from, at the array row that block row p stands for.
-/
import proofs.«148019_j15960098472359_2_alg».proof.Proof.Gen.KernelIdeal.Value
import proofs.«148019_j15960098472359_2_alg».proof.Proof.Cell
import proofs.«148019_j15960098472359_2_alg».proof.Proof.LibRowsDot

noncomputable section

open scoped BigOperators

namespace Cert.TreeCell.Kern

open Cert.KernelIdeal Cert.KernelIdeal.Gen Idealize.ShloMosaic Idealize.ShloMosaic.ValueIdx
open Cert.TreeCell

/-! ## Where the matrix product's record reads its operands -/

theorem dot_l0 (j : S128x5120.Idx) (c : dot_S128x1024_S5120x1024_S128x5120_1_1_0_0_n_n.contr.Idx) :
    (dot_S128x1024_S5120x1024_S128x5120_1_1_0_0_n_n.lhsIdx j c 0).val = (j 0).val := by
  unfold DotDims.lhsIdx
  rw [dif_neg (show ¬(0 : Fin S128x1024.rank) ∈ dot_S128x1024_S5120x1024_S128x5120_1_1_0_0_n_n.lhsBatch by decide),
    dif_pos (show (0 : Fin S128x1024.rank) ∈ dot_S128x1024_S5120x1024_S128x5120_1_1_0_0_n_n.lhsNonContracting by decide)]
  rfl

theorem dot_l1 (j : S128x5120.Idx) (c : dot_S128x1024_S5120x1024_S128x5120_1_1_0_0_n_n.contr.Idx) :
    (dot_S128x1024_S5120x1024_S128x5120_1_1_0_0_n_n.lhsIdx j c 1).val = (c ⟨0, by decide⟩).val :=
  dot_S128x1024_S5120x1024_S128x5120_1_1_0_0_n_n.lhsIdx_val_of_single rfl j c

theorem dot_r0 (j : S128x5120.Idx) (c : dot_S128x1024_S5120x1024_S128x5120_1_1_0_0_n_n.contr.Idx) :
    (dot_S128x1024_S5120x1024_S128x5120_1_1_0_0_n_n.rhsIdx j c 0).val = (j 1).val := by
  unfold DotDims.rhsIdx
  rw [dif_neg (show ¬(0 : Fin S5120x1024.rank) ∈ dot_S128x1024_S5120x1024_S128x5120_1_1_0_0_n_n.rhsBatch by decide),
    dif_pos (show (0 : Fin S5120x1024.rank) ∈ dot_S128x1024_S5120x1024_S128x5120_1_1_0_0_n_n.rhsNonContracting by decide)]
  rfl

theorem dot_r1 (j : S128x5120.Idx) (c : dot_S128x1024_S5120x1024_S128x5120_1_1_0_0_n_n.contr.Idx) :
    (dot_S128x1024_S5120x1024_S128x5120_1_1_0_0_n_n.rhsIdx j c 1).val = (c ⟨0, by decide⟩).val :=
  dot_S128x1024_S5120x1024_S128x5120_1_1_0_0_n_n.rhsIdx_val_of_single rfl j c

/-- One of the body's matrix products at entry (p, q): row p of the activations against row q of the band. -/
theorem dot_at (lhs : FVec Ideal S128x1024 .bf16) (rhs : FVec Ideal S5120x1024 .bf16) (p : Fin 128) (q : Fin 5120) :
    FloatOps.matmul dot_S128x1024_S5120x1024_S128x5120_1_1_0_0_n_n none lhs rhs (constant (F := Ideal) S128x5120 .f32 0x00000000#32) (ix2 p q)
      = ∑ k : Fin 1024, lhs (ix2 p k) * rhs (ix2 q k) :=
  Cert.Lora.rows_dot_zero dot_S128x1024_S5120x1024_S128x5120_1_1_0_0_n_n none rfl rfl dot_l0 dot_l1 dot_r0 dot_r1 lhs rhs p q

/-- The sum of the three products at entry (p, q). -/
theorem acc_at (P0 P1 P2 : Vec Ideal S5120x1024 .bf16) (P3 P4 P5 : Vec Ideal S128x1024 .bf16) (p : Fin 128) (q : Fin 5120) :
    k0_pay3 (F := Ideal) P0 P1 P2 P3 P4 P5 (ix2 p q)
      = (∑ k : Fin 1024, P3 (ix2 p k) * P0 (ix2 q k) + ∑ k : Fin 1024, P4 (ix2 p k) * P1 (ix2 q k))
        + ∑ k : Fin 1024, P5 (ix2 p k) * P2 (ix2 q k) := by
  unfold k0_pay3
  simp only [shapeCast_self]
  exact congrArg₂ (· + ·) (congrArg₂ (· + ·) (dot_at P3 P0 p q) (dot_at P4 P1 p q)) (dot_at P5 P2 p q)

/-! ## The stored blocks at a block index -/

section
variable (X HL CL HR CR : Rows) (W : Wts) (B : Bias)
variable (P0 P1 P2 : Vec Ideal S5120x1024 .bf16) (P3 P4 P5 : Vec Ideal S128x1024 .bf16) (P6 : Vec Ideal S1x5120 .f32)
  (P7 P8 : Vec Ideal S128x1024 .f32)
-- `row p` is the array row that block row `p` stands for
variable (row : Fin 128 → Fin 8192)

/-- The sum of the products plus the bias row, at (p, q), is the pre-activation of the array row. -/
theorem pre_at
    (h0 : ∀ (q : Fin 5120) (k : Fin 1024), P0 (ix2 q k) = W (ix2 q (band0 k)))
    (h1 : ∀ (q : Fin 5120) (k : Fin 1024), P1 (ix2 q k) = W (ix2 q (band1 k)))
    (h2 : ∀ (q : Fin 5120) (k : Fin 1024), P2 (ix2 q k) = W (ix2 q (band2 k)))
    (h3 : ∀ (p : Fin 128) (k : Fin 1024), P3 (ix2 p k) = X (ix2 (row p) k))
    (h4 : ∀ (p : Fin 128) (k : Fin 1024), P4 (ix2 p k) = HL (ix2 (row p) k))
    (h5 : ∀ (p : Fin 128) (k : Fin 1024), P5 (ix2 p k) = HR (ix2 (row p) k))
    (h6 : ∀ q : Fin 5120, P6 (ix2 (0 : Fin 1) q) = B (ix1 q))
    (p : Fin 128) (q : Fin 5120) :
    FloatOps.addf (F := Ideal) (φ := .f32) (k0_pay3 (F := Ideal) P0 P1 P2 P3 P4 P5 (ix2 p q)) (P6 (ix2 (0 : Fin 1) q))
      = pre X HL HR W B (row p) q := by
  rw [acc_at, h6]
  simp only [h0, h1, h2, h3, h4, h5]
  rfl

/-! ### Where a block index reads the product, the bias row and the cell states

The body slices gate n's 1024 columns out of the [128, 5120] product and out of the [1, 5120] bias row: block index
(p, j) reads the product at (p, j + 1024·n) and the bias row at (0, j + 1024·n); c_left and c_right are read at (p, j). -/

theorem ix7_0_eq (p : Fin 128) (j : Fin 1024) : Value.ix7_0 (ix2 p j) = ix2 p (gate3 j) :=
  funext fun a => match a with | ⟨0, _⟩ => rfl | ⟨1, _⟩ => rfl
theorem ix7_1_eq (p : Fin 128) (j : Fin 1024) : Value.ix7_1 (ix2 p j) = ix2 (0 : Fin 1) (gate3 j) :=
  funext fun a => match a with | ⟨0, _⟩ => rfl | ⟨1, _⟩ => rfl
theorem ix7_2_eq (p : Fin 128) (j : Fin 1024) : Value.ix7_2 (ix2 p j) = ix2 p (gate0 j) :=
  funext fun a => match a with | ⟨0, _⟩ => rfl | ⟨1, _⟩ => rfl
theorem ix7_3_eq (p : Fin 128) (j : Fin 1024) : Value.ix7_3 (ix2 p j) = ix2 (0 : Fin 1) (gate0 j) :=
  funext fun a => match a with | ⟨0, _⟩ => rfl | ⟨1, _⟩ => rfl
theorem ix7_4_eq (p : Fin 128) (j : Fin 1024) : Value.ix7_4 (ix2 p j) = ix2 p (gate4 j) :=
  funext fun a => match a with | ⟨0, _⟩ => rfl | ⟨1, _⟩ => rfl
theorem ix7_5_eq (p : Fin 128) (j : Fin 1024) : Value.ix7_5 (ix2 p j) = ix2 (0 : Fin 1) (gate4 j) :=
  funext fun a => match a with | ⟨0, _⟩ => rfl | ⟨1, _⟩ => rfl
theorem ix7_6_eq (p : Fin 128) (j : Fin 1024) : Value.ix7_6 (ix2 p j) = ix2 p (gate1 j) :=
  funext fun a => match a with | ⟨0, _⟩ => rfl | ⟨1, _⟩ => rfl
theorem ix7_7_eq (p : Fin 128) (j : Fin 1024) : Value.ix7_7 (ix2 p j) = ix2 (0 : Fin 1) (gate1 j) :=
  funext fun a => match a with | ⟨0, _⟩ => rfl | ⟨1, _⟩ => rfl
theorem ix7_8_eq (p : Fin 128) (j : Fin 1024) : Value.ix7_8 (ix2 p j) = ix2 p j :=
  funext fun a => match a with | ⟨0, _⟩ => rfl | ⟨1, _⟩ => rfl
theorem ix7_9_eq (p : Fin 128) (j : Fin 1024) : Value.ix7_9 (ix2 p j) = ix2 p (gate2 j) :=
  funext fun a => match a with | ⟨0, _⟩ => rfl | ⟨1, _⟩ => rfl
theorem ix7_10_eq (p : Fin 128) (j : Fin 1024) : Value.ix7_10 (ix2 p j) = ix2 (0 : Fin 1) (gate2 j) :=
  funext fun a => match a with | ⟨0, _⟩ => rfl | ⟨1, _⟩ => rfl
theorem ix7_11_eq (p : Fin 128) (j : Fin 1024) : Value.ix7_11 (ix2 p j) = ix2 p j :=
  funext fun a => match a with | ⟨0, _⟩ => rfl | ⟨1, _⟩ => rfl

theorem ix8_0_eq (p : Fin 128) (j : Fin 1024) : Value.ix8_0 (ix2 p j) = ix2 p (gate0 j) :=
  funext fun a => match a with | ⟨0, _⟩ => rfl | ⟨1, _⟩ => rfl
theorem ix8_1_eq (p : Fin 128) (j : Fin 1024) : Value.ix8_1 (ix2 p j) = ix2 (0 : Fin 1) (gate0 j) :=
  funext fun a => match a with | ⟨0, _⟩ => rfl | ⟨1, _⟩ => rfl
theorem ix8_2_eq (p : Fin 128) (j : Fin 1024) : Value.ix8_2 (ix2 p j) = ix2 p (gate4 j) :=
  funext fun a => match a with | ⟨0, _⟩ => rfl | ⟨1, _⟩ => rfl
theorem ix8_3_eq (p : Fin 128) (j : Fin 1024) : Value.ix8_3 (ix2 p j) = ix2 (0 : Fin 1) (gate4 j) :=
  funext fun a => match a with | ⟨0, _⟩ => rfl | ⟨1, _⟩ => rfl
theorem ix8_4_eq (p : Fin 128) (j : Fin 1024) : Value.ix8_4 (ix2 p j) = ix2 p (gate1 j) :=
  funext fun a => match a with | ⟨0, _⟩ => rfl | ⟨1, _⟩ => rfl
theorem ix8_5_eq (p : Fin 128) (j : Fin 1024) : Value.ix8_5 (ix2 p j) = ix2 (0 : Fin 1) (gate1 j) :=
  funext fun a => match a with | ⟨0, _⟩ => rfl | ⟨1, _⟩ => rfl
theorem ix8_6_eq (p : Fin 128) (j : Fin 1024) : Value.ix8_6 (ix2 p j) = ix2 p j :=
  funext fun a => match a with | ⟨0, _⟩ => rfl | ⟨1, _⟩ => rfl
theorem ix8_7_eq (p : Fin 128) (j : Fin 1024) : Value.ix8_7 (ix2 p j) = ix2 p (gate2 j) :=
  funext fun a => match a with | ⟨0, _⟩ => rfl | ⟨1, _⟩ => rfl
theorem ix8_8_eq (p : Fin 128) (j : Fin 1024) : Value.ix8_8 (ix2 p j) = ix2 (0 : Fin 1) (gate2 j) :=
  funext fun a => match a with | ⟨0, _⟩ => rfl | ⟨1, _⟩ => rfl
theorem ix8_9_eq (p : Fin 128) (j : Fin 1024) : Value.ix8_9 (ix2 p j) = ix2 p j :=
  funext fun a => match a with | ⟨0, _⟩ => rfl | ⟨1, _⟩ => rfl

/-- The block stored to the hidden-state output, at (p, j), is the cell's h at the array row of p. -/
theorem block_h
    (h0 : ∀ (q : Fin 5120) (k : Fin 1024), P0 (ix2 q k) = W (ix2 q (band0 k)))
    (h1 : ∀ (q : Fin 5120) (k : Fin 1024), P1 (ix2 q k) = W (ix2 q (band1 k)))
    (h2 : ∀ (q : Fin 5120) (k : Fin 1024), P2 (ix2 q k) = W (ix2 q (band2 k)))
    (h3 : ∀ (p : Fin 128) (k : Fin 1024), P3 (ix2 p k) = X (ix2 (row p) k))
    (h4 : ∀ (p : Fin 128) (k : Fin 1024), P4 (ix2 p k) = HL (ix2 (row p) k))
    (h5 : ∀ (p : Fin 128) (k : Fin 1024), P5 (ix2 p k) = HR (ix2 (row p) k))
    (h6 : ∀ q : Fin 5120, P6 (ix2 (0 : Fin 1) q) = B (ix1 q))
    (h7 : ∀ (p : Fin 128) (j : Fin 1024), P7 (ix2 p j) = CL (ix2 (row p) j))
    (h8 : ∀ (p : Fin 128) (j : Fin 1024), P8 (ix2 p j) = CR (ix2 (row p) j))
    (p : Fin 128) (j : Fin 1024) :
    Value.E7 (F := Ideal) P0 P1 P2 P3 P4 P5 P6 P7 P8 (ix2 p j) = cellH X HL CL HR CR W B (row p) j := by
  unfold Value.E7
  rw [ix7_0_eq, ix7_1_eq, ix7_2_eq, ix7_3_eq, ix7_4_eq, ix7_5_eq, ix7_6_eq, ix7_7_eq, ix7_8_eq, ix7_9_eq, ix7_10_eq, ix7_11_eq]
  simp only [pre_at X HL HR W B P0 P1 P2 P3 P4 P5 P6 row h0 h1 h2 h3 h4 h5 h6, h7, h8]
  rfl

/-- The block stored to the cell-state output, at (p, j), is the cell's c at the array row of p. -/
theorem block_c
    (h0 : ∀ (q : Fin 5120) (k : Fin 1024), P0 (ix2 q k) = W (ix2 q (band0 k)))
    (h1 : ∀ (q : Fin 5120) (k : Fin 1024), P1 (ix2 q k) = W (ix2 q (band1 k)))
    (h2 : ∀ (q : Fin 5120) (k : Fin 1024), P2 (ix2 q k) = W (ix2 q (band2 k)))
    (h3 : ∀ (p : Fin 128) (k : Fin 1024), P3 (ix2 p k) = X (ix2 (row p) k))
    (h4 : ∀ (p : Fin 128) (k : Fin 1024), P4 (ix2 p k) = HL (ix2 (row p) k))
    (h5 : ∀ (p : Fin 128) (k : Fin 1024), P5 (ix2 p k) = HR (ix2 (row p) k))
    (h6 : ∀ q : Fin 5120, P6 (ix2 (0 : Fin 1) q) = B (ix1 q))
    (h7 : ∀ (p : Fin 128) (j : Fin 1024), P7 (ix2 p j) = CL (ix2 (row p) j))
    (h8 : ∀ (p : Fin 128) (j : Fin 1024), P8 (ix2 p j) = CR (ix2 (row p) j))
    (p : Fin 128) (j : Fin 1024) :
    Value.E8 (F := Ideal) P0 P1 P2 P3 P4 P5 P6 P7 P8 (ix2 p j) = cellC X HL CL HR CR W B (row p) j := by
  unfold Value.E8
  rw [ix8_0_eq, ix8_1_eq, ix8_2_eq, ix8_3_eq, ix8_4_eq, ix8_5_eq, ix8_6_eq, ix8_7_eq, ix8_8_eq, ix8_9_eq]
  simp only [pre_at X HL HR W B P0 P1 P2 P3 P4 P5 P6 row h0 h1 h2 h3 h4 h5 h6, h7, h8]
  rfl

end

end Cert.TreeCell.Kern

end
-- ==== Proof.KernArray.lean ====
/-
  From grid points to whole arrays: after the kernel's run its two output arrays are `outH` and `outC` of the
  argument arrays.

  The grid has 64 points. At point t the activation windows (x, h_left, h_right, c_left, c_right and both outputs)
  hold rows 128·t … 128·t + 127 of their arrays, all 1024 columns; the weight window holds all of W and the bias
  window the whole bias row at every point. Before the region the host only changes the format of x, h_left,
  h_right and W (the identity on the extended reals) and gives the bias a leading unit axis.

  So block row p at point t stands for array row 128·t + p; each load reads its array there; by the per-block lemmas
  what point t writes back is block t of `outH` / `outC`; and row r of an output lies in the block of point r / 128,
  so the 64 blocks cover the array.
-/
import proofs.«148019_j15960098472359_2_alg».proof.Proof.KernBlock
import Idealize.ShloMosaic.Lib.StableHlo.Run
import Idealize.ShloMosaic.Lib.ValueLayout

noncomputable section

open scoped BigOperators

namespace Cert.TreeCell.Kern

open Cert.KernelIdeal Cert.KernelIdeal.Gen Idealize.ShloMosaic Idealize.ShloMosaic.TcCoe Idealize.SL.Sem
open Idealize.ShloMosaic.ValueIdx
open Idealize.ShloMosaic.Pipeline (Dat)
open Cert.TreeCell

variable (m : (ℓ : Loc nD τ sig) → Buf (Elt Ideal) ℓ) (ρ : Dev nD → PrngReg)

/-! ## The grid -/

/-- Where each window's block sits at point `t`: the row-blocked windows at block row `t`, block column 0; the
    weight and bias windows at block (0, 0). -/
structure GridFacts (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = t.val ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = t.val ∧ win0_5.index t (1 : Fin 2) = 0
  w6 : win0_6.index t (0 : Fin 2) = t.val ∧ win0_6.index t (1 : Fin 2) = 0
  w7 : win0_7.index t (0 : Fin 2) = t.val ∧ win0_7.index t (1 : Fin 2) = 0
  w8 : win0_8.index t (0 : Fin 2) = t.val ∧ win0_8.index t (1 : Fin 2) = 0

/-- The printed index maps, decided over the 64 points. -/
theorem grid_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem grid_facts (t : Fin cfg0.N) : GridFacts t :=
  let ⟨a0, a1, a2, a3, a4, a5, a6, a7, a8⟩ := grid_index t
  ⟨a0, a1, a2, a3, a4, a5, a6, a7, a8⟩

/-- The array row that block row `p` stands for at point `t`. -/
abbrev row (t : Fin cfg0.N) (p : Fin 128) : Fin 8192 :=
  ⟨t.val * 128 + p.val, by have ht : t.val < 64 := t.isLt; have hp := p.isLt; omega⟩

/-! ## The arrays the region finds -/

/-- The format change of x is the identity on the extended reals. -/
theorem V_v0 (c : Dev nD) : (V m c main_v0 : S8192x1024.Idx → EReal) = (m ((c : Thread nD τ).loc main_arg0)) := by
  dsimp only [Gen.V, Gen.hostOps0]; after_results; rfl
/-- The format change of h_left. -/
theorem V_v1 (c : Dev nD) : (V m c main_v1 : S8192x1024.Idx → EReal) = (m ((c : Thread nD τ).loc main_arg1)) := by
  dsimp only [Gen.V, Gen.hostOps0]; after_results; rfl
/-- The format change of h_right. -/
theorem V_v2 (c : Dev nD) : (V m c main_v2 : S8192x1024.Idx → EReal) = (m ((c : Thread nD τ).loc main_arg3)) := by
  dsimp only [Gen.V, Gen.hostOps0]; after_results; rfl
/-- The format change of W. -/
theorem V_v3 (c : Dev nD) : (V m c main_v3 : S5120x3072.Idx → EReal) = (m ((c : Thread nD τ).loc main_arg5)) := by
  dsimp only [Gen.V, Gen.hostOps0]; after_results; rfl
/-- The bias with a leading unit axis. -/
theorem V_v4 (c : Dev nD) :
    (V m c main_v4 : S1x5120.Idx → EReal) = shapeCast S1x5120 (m ((c : Thread nD τ).loc main_arg6)) shapeCasts_S5120_S1x5120 := by
  dsimp only [Gen.V, Gen.hostOps0]; after_results; rfl

/-! ## What each load reads -/

/-- The loaded block of x holds rows 128·t … of x. -/
theorem read_x (c : Dev nD) (t : Fin cfg0.N) (p : Fin 128) (k : Fin 1024) :
    View.ld (iblk m c 0 t) r0_3 (ix2 p k) = (m ((c : Thread nD τ).loc main_arg0)) (ix2 (row t p) k) := by
  show V m c main_v0 (((cfg0.win 0).blk t).view.emb (r0_3.emb (ix2 p k))) = _
  rw [V_v0]
  refine congrArg _ (funext fun a => Fin.ext ?_)
  have e0 := (grid_facts t).w0.1
  have e1 := (grid_facts t).w0.2
  match a with
  | ⟨0, _⟩ =>
    show win0_0.index t (0 : Fin 2) * 128 + 1 * (0 + 1 * p.val) = t.val * 128 + p.val
    omega
  | ⟨1, _⟩ =>
    show win0_0.index t (1 : Fin 2) * 1024 + 1 * (0 + 1 * k.val) = k.val
    omega

/-- The loaded block of h_left. -/
theorem read_hl (c : Dev nD) (t : Fin cfg0.N) (p : Fin 128) (k : Fin 1024) :
    View.ld (iblk m c 1 t) r0_3 (ix2 p k) = (m ((c : Thread nD τ).loc main_arg1)) (ix2 (row t p) k) := by
  show V m c main_v1 (((cfg0.win 1).blk t).view.emb (r0_3.emb (ix2 p k))) = _
  rw [V_v1]
  refine congrArg _ (funext fun a => Fin.ext ?_)
  have e0 := (grid_facts t).w1.1
  have e1 := (grid_facts t).w1.2
  match a with
  | ⟨0, _⟩ =>
    show win0_1.index t (0 : Fin 2) * 128 + 1 * (0 + 1 * p.val) = t.val * 128 + p.val
    omega
  | ⟨1, _⟩ =>
    show win0_1.index t (1 : Fin 2) * 1024 + 1 * (0 + 1 * k.val) = k.val
    omega

/-- The loaded block of h_right. -/
theorem read_hr (c : Dev nD) (t : Fin cfg0.N) (p : Fin 128) (k : Fin 1024) :
    View.ld (iblk m c 2 t) r0_3 (ix2 p k) = (m ((c : Thread nD τ).loc main_arg3)) (ix2 (row t p) k) := by
  show V m c main_v2 (((cfg0.win 2).blk t).view.emb (r0_3.emb (ix2 p k))) = _
  rw [V_v2]
  refine congrArg _ (funext fun a => Fin.ext ?_)
  have e0 := (grid_facts t).w2.1
  have e1 := (grid_facts t).w2.2
  match a with
  | ⟨0, _⟩ =>
    show win0_2.index t (0 : Fin 2) * 128 + 1 * (0 + 1 * p.val) = t.val * 128 + p.val
    omega
  | ⟨1, _⟩ =>
    show win0_2.index t (1 : Fin 2) * 1024 + 1 * (0 + 1 * k.val) = k.val
    omega

/-- The loaded block of c_left. -/
theorem read_cl (c : Dev nD) (t : Fin cfg0.N) (p : Fin 128) (k : Fin 1024) :
    View.ld (iblk m c 5 t) r0_3 (ix2 p k) = (m ((c : Thread nD τ).loc main_arg2)) (ix2 (row t p) k) := by
  show V m c main_arg2 (((cfg0.win 5).blk t).view.emb (r0_3.emb (ix2 p k))) = _
  rw [V_main_arg2]
  refine congrArg _ (funext fun a => Fin.ext ?_)
  have e0 := (grid_facts t).w5.1
  have e1 := (grid_facts t).w5.2
  match a with
  | ⟨0, _⟩ =>
    show win0_5.index t (0 : Fin 2) * 128 + 1 * (0 + 1 * p.val) = t.val * 128 + p.val
    omega
  | ⟨1, _⟩ =>
    show win0_5.index t (1 : Fin 2) * 1024 + 1 * (0 + 1 * k.val) = k.val
    omega

/-- The loaded block of c_right. -/
theorem read_cr (c : Dev nD) (t : Fin cfg0.N) (p : Fin 128) (k : Fin 1024) :
    View.ld (iblk m c 6 t) r0_3 (ix2 p k) = (m ((c : Thread nD τ).loc main_arg4)) (ix2 (row t p) k) := by
  show V m c main_arg4 (((cfg0.win 6).blk t).view.emb (r0_3.emb (ix2 p k))) = _
  rw [V_main_arg4]
  refine congrArg _ (funext fun a => Fin.ext ?_)
  have e0 := (grid_facts t).w6.1
  have e1 := (grid_facts t).w6.2
  match a with
  | ⟨0, _⟩ =>
    show win0_6.index t (0 : Fin 2) * 128 + 1 * (0 + 1 * p.val) = t.val * 128 + p.val
    omega
  | ⟨1, _⟩ =>
    show win0_6.index t (1 : Fin 2) * 1024 + 1 * (0 + 1 * k.val) = k.val
    omega

/-- Band 0 of the resident weight block is band 0 of W. -/
theorem read_w0 (c : Dev nD) (t : Fin cfg0.N) (q : Fin 5120) (k : Fin 1024) :
    View.ld (iblk m c 3 t) r0_0 (ix2 q k) = (m ((c : Thread nD τ).loc main_arg5)) (ix2 q (band0 k)) := by
  show V m c main_v3 (((cfg0.win 3).blk t).view.emb (r0_0.emb (ix2 q k))) = _
  rw [V_v3]
  refine congrArg _ (funext fun a => Fin.ext ?_)
  have e0 := (grid_facts t).w3.1
  have e1 := (grid_facts t).w3.2
  match a with
  | ⟨0, _⟩ =>
    show win0_3.index t (0 : Fin 2) * 5120 + 1 * (0 + 1 * q.val) = q.val
    omega
  | ⟨1, _⟩ =>
    show win0_3.index t (1 : Fin 2) * 3072 + 1 * (0 + 1 * k.val) = k.val + 0
    omega

/-- Band 1 of the resident weight block is band 1 of W. -/
theorem read_w1 (c : Dev nD) (t : Fin cfg0.N) (q : Fin 5120) (k : Fin 1024) :
    View.ld (iblk m c 3 t) r0_1 (ix2 q k) = (m ((c : Thread nD τ).loc main_arg5)) (ix2 q (band1 k)) := by
  show V m c main_v3 (((cfg0.win 3).blk t).view.emb (r0_1.emb (ix2 q k))) = _
  rw [V_v3]
  refine congrArg _ (funext fun a => Fin.ext ?_)
  have e0 := (grid_facts t).w3.1
  have e1 := (grid_facts t).w3.2
  match a with
  | ⟨0, _⟩ =>
    show win0_3.index t (0 : Fin 2) * 5120 + 1 * (0 + 1 * q.val) = q.val
    omega
  | ⟨1, _⟩ =>
    show win0_3.index t (1 : Fin 2) * 3072 + 1 * (1024 + 1 * k.val) = k.val + 1024
    omega

/-- Band 2 of the resident weight block is band 2 of W. -/
theorem read_w2 (c : Dev nD) (t : Fin cfg0.N) (q : Fin 5120) (k : Fin 1024) :
    View.ld (iblk m c 3 t) r0_2 (ix2 q k) = (m ((c : Thread nD τ).loc main_arg5)) (ix2 q (band2 k)) := by
  show V m c main_v3 (((cfg0.win 3).blk t).view.emb (r0_2.emb (ix2 q k))) = _
  rw [V_v3]
  refine congrArg _ (funext fun a => Fin.ext ?_)
  have e0 := (grid_facts t).w3.1
  have e1 := (grid_facts t).w3.2
  match a with
  | ⟨0, _⟩ =>
    show win0_3.index t (0 : Fin 2) * 5120 + 1 * (0 + 1 * q.val) = q.val
    omega
  | ⟨1, _⟩ =>
    show win0_3.index t (1 : Fin 2) * 3072 + 1 * (2048 + 1 * k.val) = k.val + 2048
    omega

/-- The loaded bias row is the bias. -/
theorem read_b (c : Dev nD) (t : Fin cfg0.N) (q : Fin 5120) :
    View.ld (iblk m c 4 t) r0_4 (ix2 (0 : Fin 1) q) = (m ((c : Thread nD τ).loc main_arg6)) (ix1 q) := by
  show V m c main_v4 (((cfg0.win 4).blk t).view.emb (r0_4.emb (ix2 (0 : Fin 1) q))) = _
  rw [V_v4]
  refine (congrArg _ (funext fun a => Fin.ext ?_)).trans (shapeCast_a_1a_apply _ shapeCasts_S5120_S1x5120 (0 : Fin 1) q)
  have e0 := (grid_facts t).w4.1
  have e1 := (grid_facts t).w4.2
  match a with
  | ⟨0, _⟩ =>
    show win0_4.index t (0 : Fin 2) * 1 + 1 * (0 + 1 * 0) = 0
    omega
  | ⟨1, _⟩ =>
    show win0_4.index t (1 : Fin 2) * 5120 + 1 * (0 + 1 * q.val) = q.val
    omega

/-! ## What a point writes back -/

/-- The buffer the body leaves for the hidden state, read at an index, over any input blocks. -/
theorem out_h_at (x0 x1 x2 : Vec Ideal S128x1024 .bf16) (x3 : Vec Ideal S5120x3072 .bf16) (x4 : Vec Ideal S1x5120 .f32) (x5 x6 : Vec Ideal S128x1024 .f32) (y : S128x1024.Idx) :
    out0_7 x0 x1 x2 x3 x4 x5 x6 y = Value.E7 (View.ld x3 r0_0) (View.ld x3 r0_1) (View.ld x3 r0_2) (View.ld x0 r0_3) (View.ld x1 r0_3) (View.ld x2 r0_3) (View.ld x4 r0_4) (View.ld x5 r0_3) (View.ld x6 r0_3) y := by
  unfold out0_7
  exact Value.canon7_eq _ _ _ _ _ _ _ _ _ y

/-- The buffer the body leaves for the cell state, read at an index, over any input blocks. -/
theorem out_c_at (x0 x1 x2 : Vec Ideal S128x1024 .bf16) (x3 : Vec Ideal S5120x3072 .bf16) (x4 : Vec Ideal S1x5120 .f32) (x5 x6 : Vec Ideal S128x1024 .f32) (y : S128x1024.Idx) :
    out0_8 x0 x1 x2 x3 x4 x5 x6 y = Value.E8 (View.ld x3 r0_0) (View.ld x3 r0_1) (View.ld x3 r0_2) (View.ld x0 r0_3) (View.ld x1 r0_3) (View.ld x2 r0_3) (View.ld x4 r0_4) (View.ld x5 r0_3) (View.ld x6 r0_3) y := by
  unfold out0_8
  exact Value.canon8_eq _ _ _ _ _ _ _ _ _ y

/-- Point `t` writes back block `t` of the hidden state. -/
theorem flushed_h (c : Dev nD) (t : Fin cfg0.N) :
    (dats m 0 c).flushed 7 t = ((cfg0.win 7).blk t).view.read (Elt Ideal) (outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext y
  obtain ⟨p, j, rfl⟩ : ∃ (p : Fin 128) (j : Fin 1024), y = ix2 p j := ⟨y 0, y 1, eq_ix2 y⟩
  show out0_7 (iblk m c 0 t) (iblk m c 1 t) (iblk m c 2 t) (iblk m c 3 t) (iblk m c 4 t) (iblk m c 5 t) (iblk m c 6 t) (ix2 p j) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p j))
  refine (out_h_at (iblk m c 0 t) (iblk m c 1 t) (iblk m c 2 t) (iblk m c 3 t) (iblk m c 4 t) (iblk m c 5 t) (iblk m c 6 t) (ix2 p j)).trans ?_
  refine (block_h (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (View.ld (iblk m c 3 t) r0_0) (View.ld (iblk m c 3 t) r0_1) (View.ld (iblk m c 3 t) r0_2) (View.ld (iblk m c 0 t) r0_3) (View.ld (iblk m c 1 t) r0_3) (View.ld (iblk m c 2 t) r0_3) (View.ld (iblk m c 4 t) r0_4) (View.ld (iblk m c 5 t) r0_3) (View.ld (iblk m c 6 t) r0_3) (row t) (read_w0 m c t) (read_w1 m c t) (read_w2 m c t) (read_x m c t) (read_hl m c t) (read_hr m c t) (read_b m c t) (read_cl m c t) (read_cr m c t) p j).trans ?_
  have e0 := (grid_facts t).w7.1
  have e1 := (grid_facts t).w7.2
  have hemb : ((cfg0.win 7).blk t).view.emb (ix2 p j) = ix2 (row t p) j := by
    funext a; apply Fin.ext
    match a with
    | ⟨0, _⟩ =>
      show win0_7.index t (0 : Fin 2) * 128 + 1 * p.val = t.val * 128 + p.val
      omega
    | ⟨1, _⟩ =>
      show win0_7.index t (1 : Fin 2) * 1024 + 1 * j.val = j.val
      omega
  rw [hemb]
  rfl

/-- Point `t` writes back block `t` of the cell state. -/
theorem flushed_c (c : Dev nD) (t : Fin cfg0.N) :
    (dats m 0 c).flushed 8 t = ((cfg0.win 8).blk t).view.read (Elt Ideal) (outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  funext y
  obtain ⟨p, j, rfl⟩ : ∃ (p : Fin 128) (j : Fin 1024), y = ix2 p j := ⟨y 0, y 1, eq_ix2 y⟩
  show out0_8 (iblk m c 0 t) (iblk m c 1 t) (iblk m c 2 t) (iblk m c 3 t) (iblk m c 4 t) (iblk m c 5 t) (iblk m c 6 t) (ix2 p j) = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p j))
  refine (out_c_at (iblk m c 0 t) (iblk m c 1 t) (iblk m c 2 t) (iblk m c 3 t) (iblk m c 4 t) (iblk m c 5 t) (iblk m c 6 t) (ix2 p j)).trans ?_
  refine (block_c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (View.ld (iblk m c 3 t) r0_0) (View.ld (iblk m c 3 t) r0_1) (View.ld (iblk m c 3 t) r0_2) (View.ld (iblk m c 0 t) r0_3) (View.ld (iblk m c 1 t) r0_3) (View.ld (iblk m c 2 t) r0_3) (View.ld (iblk m c 4 t) r0_4) (View.ld (iblk m c 5 t) r0_3) (View.ld (iblk m c 6 t) r0_3) (row t) (read_w0 m c t) (read_w1 m c t) (read_w2 m c t) (read_x m c t) (read_hl m c t) (read_hr m c t) (read_b m c t) (read_cl m c t) (read_cr m c t) p j).trans ?_
  have e0 := (grid_facts t).w8.1
  have e1 := (grid_facts t).w8.2
  have hemb : ((cfg0.win 8).blk t).view.emb (ix2 p j) = ix2 (row t p) j := by
    funext a; apply Fin.ext
    match a with
    | ⟨0, _⟩ =>
      show win0_8.index t (0 : Fin 2) * 128 + 1 * p.val = t.val * 128 + p.val
      omega
    | ⟨1, _⟩ =>
      show win0_8.index t (1 : Fin 2) * 1024 + 1 * j.val = j.val
      omega
  rw [hemb]
  rfl

/-! ## The blocks cover the arrays -/

/-- An index of the hidden-state array is in point `t`'s block iff each coordinate is in the block's range. -/
theorem mem_blk_h (t : Fin cfg0.N) (i : S8192x1024.Idx) :
    i ∈ ((cfg0.win 7).blk t).view.set ↔ ∀ a : Fin 2, win0_7.index t a * S128x1024.size a ≤ (i a).val
      ∧ (i a).val < win0_7.index t a * S128x1024.size a + S128x1024.size a := by
  show i ∈ ((View.whole main_v5_0).slice (win0_7.rect t)).set ↔ _
  rw [View.set_slice_whole, Rect.mem_set_unit]
  exact Iff.rfl

/-- The same for the cell-state array. -/
theorem mem_blk_c (t : Fin cfg0.N) (i : S8192x1024.Idx) :
    i ∈ ((cfg0.win 8).blk t).view.set ↔ ∀ a : Fin 2, win0_8.index t a * S128x1024.size a ≤ (i a).val
      ∧ (i a).val < win0_8.index t a * S128x1024.size a + S128x1024.size a := by
  show i ∈ ((View.whole main_v5_1).slice (win0_8.rect t)).set ↔ _
  rw [View.set_slice_whole, Rect.mem_set_unit]
  exact Iff.rfl

/-- Row r of the hidden-state array lies in the block of point r / 128. -/
theorem cover_h (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have ht : (i 0).val / 128 < 64 := by omega
  refine ⟨⟨(i 0).val / 128, ht⟩, flush0_7 _, ?_⟩
  have e0 := (grid_facts ⟨(i 0).val / 128, ht⟩).w7.1
  have e1 := (grid_facts ⟨(i 0).val / 128, ht⟩).w7.2
  rw [mem_blk_h]
  intro a
  match a with
  | ⟨0, _⟩ =>
    show win0_7.index ⟨(i 0).val / 128, ht⟩ (0 : Fin 2) * 128 ≤ (i 0).val
      ∧ (i 0).val < win0_7.index ⟨(i 0).val / 128, ht⟩ (0 : Fin 2) * 128 + 128
    have e0' : win0_7.index ⟨(i 0).val / 128, ht⟩ (0 : Fin 2) = (i 0).val / 128 := e0
    omega
  | ⟨1, _⟩ =>
    show win0_7.index ⟨(i 0).val / 128, ht⟩ (1 : Fin 2) * 1024 ≤ (i 1).val
      ∧ (i 1).val < win0_7.index ⟨(i 0).val / 128, ht⟩ (1 : Fin 2) * 1024 + 1024
    omega

/-- The same for the cell-state array. -/
theorem cover_c (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have ht : (i 0).val / 128 < 64 := by omega
  refine ⟨⟨(i 0).val / 128, ht⟩, flush0_8 _, ?_⟩
  have e0 := (grid_facts ⟨(i 0).val / 128, ht⟩).w8.1
  have e1 := (grid_facts ⟨(i 0).val / 128, ht⟩).w8.2
  rw [mem_blk_c]
  intro a
  match a with
  | ⟨0, _⟩ =>
    show win0_8.index ⟨(i 0).val / 128, ht⟩ (0 : Fin 2) * 128 ≤ (i 0).val
      ∧ (i 0).val < win0_8.index ⟨(i 0).val / 128, ht⟩ (0 : Fin 2) * 128 + 128
    have e0' : win0_8.index ⟨(i 0).val / 128, ht⟩ (0 : Fin 2) = (i 0).val / 128 := e0
    omega
  | ⟨1, _⟩ =>
    show win0_8.index ⟨(i 0).val / 128, ht⟩ (1 : Fin 2) * 1024 ≤ (i 1).val
      ∧ (i 1).val < win0_8.index ⟨(i 0).val / 128, ht⟩ (1 : Fin 2) * 1024 + 1024
    omega

/-! ## The arrays after the run -/

/-- The hidden-state array after the run. -/
theorem final_h (c : Dev nD) : (dats m 0 c).arrAt 7 cfg0.N = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_h m c t) cover_h

/-- The cell-state array after the run. -/
theorem final_c (c : Dev nD) : (dats m 0 c).arrAt 8 cfg0.N = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_c m c t) cover_c

/-- Every weakly fair execution of the idealized kernel terminates with its two results at the cell's h and c of the
    argument arrays, the arguments unchanged. -/
theorem run : θ_run defs (onTc (τ := τ) (main (F := Ideal))) ⟨m, fun _ => 0, ρ⟩ fun r => ∀ c : Dev nD,
      r.2.mem ((c : Thread nD τ).loc main_v5_0) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v5_1) = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_h m c), (h c).2.1.trans (final_c m c), (h c).2.2⟩)
    (Value.run_blocks m ρ)

end Cert.TreeCell.Kern

end
-- ==== Proof.lean ====
/-
  The binary tree-LSTM cell: the Pallas kernel against its jnp reference, on the extended reals.

  Both programs compute, for the activations x, h_left, h_right, the cell states c_left, c_right, the stacked gate
  weights W and the bias b,

      pre[r, q] = Σ_k [x | h_left | h_right][r, k] · W[q, k] + b[q]          (five gates of 1024 columns each)
      c = σ(pre_i) · tanh(pre_u) + σ(pre_fl) · c_left + σ(pre_fr) · c_right
      h = σ(pre_o) · tanh(c).

  The reference forms the concatenation and one product over its 3072 columns, and spells σ(z) as 1 / (1 + exp (−z)).
  The kernel never concatenates: per block of 128 rows it adds three products of x, h_left, h_right with the three
  1024-column bands of W, and uses the logistic operation. At the ideal instance a change of float format is the
  identity, the logistic operation is 1 / (1 + exp (−z)) by definition, and a sum over 3072 columns is the sum of its
  three bands — commutativity and associativity of addition only, so the finiteness of the inputs is never used.

  Cell.lean states the cell as one function of the arrays (`outH`, `outC`); RefCell.lean reads the reference's two
  results as these functions; KernBlock.lean and KernArray.lean read the kernel's two output arrays as the same
  functions, block by block and then over the grid. Here the two runs are set side by side.
  The three frame claims are the generated frame certificates (the reference's is its generated run with the results
  dropped); the ideal pass rewrote nothing, so the preservation claim is trivial.
-/
import proofs.«148019_j15960098472359_2_alg».proof.Defs
import proofs.«148019_j15960098472359_2_alg».proof.Proof.Gen.Kernel
import proofs.«148019_j15960098472359_2_alg».proof.Proof.Gen.Kernel.Frame
import proofs.«148019_j15960098472359_2_alg».proof.Proof.Gen.KernelIdeal
import proofs.«148019_j15960098472359_2_alg».proof.Proof.Gen.KernelIdeal.Frame
import proofs.«148019_j15960098472359_2_alg».proof.Proof.Gen.ReferenceIdeal
import proofs.«148019_j15960098472359_2_alg».proof.Proof.Gen.Pre_finite_inputs
import proofs.«148019_j15960098472359_2_alg».proof.Proof.Gen.KernelIdeal.Value
import proofs.«148019_j15960098472359_2_alg».proof.Proof.Gen.ReferenceIdeal.Run
import proofs.«148019_j15960098472359_2_alg».proof.Proof.Gen.ReferenceIdeal.Read
import proofs.«148019_j15960098472359_2_alg».proof.Proof.RefCell
import proofs.«148019_j15960098472359_2_alg».proof.Proof.KernArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the seven arguments both idealized programs end with the hidden state `outH` and the
    cell state `outC` of those arguments. -/
theorem algebraic : Cert.algebraic_KernelIdeal_ReferenceIdeal := by
  intro m ρ m' ρ' _ hagree
  refine ⟨_, _, Cert.TreeCell.Kern.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v42_eq, Cert.TreeCell.Ref.hidden_state_eq,
      (hagree c).1, (hagree c).2.1, (hagree c).2.2.1, (hagree c).2.2.2.1, (hagree c).2.2.2.2.1,
      (hagree c).2.2.2.2.2.1, (hagree c).2.2.2.2.2.2]
  · refine (h c).2.1.trans ?_
    refine (Cert.ReferenceIdeal.Read.val_main_v40_eq _ _ _ _ _ _ _).trans ?_
    rw [Cert.TreeCell.Ref.cell_state_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
